-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Payload.lean ====
/-
  The kernel body's two stored values, read entry by entry over the extended reals.

  At every grid point the body adds to its [1024 × 1024] accumulator the product of the point's left block
  (rows of `x`, 1024 of its columns) and right block (1024 rows of the weights, some of its columns); before the first
  point of a run it clears the accumulator. Narrowing both operands to bf16 changes nothing here: on the extended
  reals a change of float format is the identity. So entry (p, q) of the cleared accumulator is `0`, and entry (p, q)
  after one step is the old entry plus  ∑_{l < 1024} a(p, l) · b(l, q).
-/
import proofs.«137001_j23708219474208_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The dimension numbers of the body's product: rows of the left block against columns of the right one. -/
abbrev MM : DotDims S1024x1024 S1024x1024 S1024x1024 := dot_S1024x1024_S1024x1024_S1024x1024_1_0_0_1_n_n

/-- The cleared accumulator holds `0` everywhere. -/
theorem cleared_apply (j : S1024x1024.Idx) : k0_pay1 (F := Ideal) j = 0 := by
  unfold k0_pay1
  rw [shapeCast_self]
  exact Ideal.ofBits_zero_f32

/-- Entry (p, q) of the product reads the left block in row `p` … -/
theorem lhs_row (j : S1024x1024.Idx) (k : MM.contr.Idx) : (MM.lhsIdx j k 0).val = (j 0).val := by
  unfold DotDims.lhsIdx
  rw [dif_neg (show ¬(0 : Fin S1024x1024.rank) ∈ MM.lhsBatch by decide),
    dif_pos (show (0 : Fin S1024x1024.rank) ∈ MM.lhsNonContracting by decide)]
  rfl
/-- … at the column the shared axis names, … -/
theorem lhs_col (j : S1024x1024.Idx) (k : MM.contr.Idx) : (MM.lhsIdx j k 1).val = (k ⟨0, by decide⟩).val :=
  MM.lhsIdx_val_of_single rfl j k
/-- … and the right block in that same row, … -/
theorem rhs_row (j : S1024x1024.Idx) (k : MM.contr.Idx) : (MM.rhsIdx j k 0).val = (k ⟨0, by decide⟩).val :=
  MM.rhsIdx_val_of_single rfl j k
/-- … in column `q`. -/
theorem rhs_col (j : S1024x1024.Idx) (k : MM.contr.Idx) : (MM.rhsIdx j k 1).val = (j 1).val := by
  unfold DotDims.rhsIdx
  rw [dif_neg (show ¬(1 : Fin S1024x1024.rank) ∈ MM.rhsBatch by decide),
    dif_pos (show (1 : Fin S1024x1024.rank) ∈ MM.rhsNonContracting by decide)]
  rfl

/-- The product of two blocks at entry (p, q): the sum over the shared axis. -/
theorem product_apply (a b : FVec Ideal S1024x1024 .bf16) (p q : Fin 1024) :
    FloatOps.matmul MM none a b (constant (F := Ideal) S1024x1024 .f32 0x00000000#32) (ix2 p q)
      = ∑ l : Fin 1024, a (ix2 p l) * b (ix2 l q) := by
  refine (Ideal.matmul_constant_zero_apply MM none a b (ix2 p q)).trans ?_
  refine (Equiv.sum_comp (contrEquiv1 MM 1024 rfl rfl).symm _).symm.trans ?_
  refine Finset.sum_congr rfl fun l _ => ?_
  have hl := contrEquiv1_symm_val MM 1024 rfl rfl l
  have el : MM.lhsIdx (ix2 p q) ((contrEquiv1 MM 1024 rfl rfl).symm l) = ix2 p l := funext fun d => Fin.ext (by
    match d with
    | ⟨0, _⟩ => exact lhs_row _ _
    | ⟨1, _⟩ => exact (lhs_col _ _).trans hl)
  have er : MM.rhsIdx (ix2 p q) ((contrEquiv1 MM 1024 rfl rfl).symm l) = ix2 l q := funext fun d => Fin.ext (by
    match d with
    | ⟨0, _⟩ => exact (rhs_row _ _).trans hl
    | ⟨1, _⟩ => exact rhs_col _ _)
  rw [el, er]

/-- One accumulation step at entry (p, q): the old entry plus the product's. -/
theorem step_apply (a b acc : Vec Ideal S1024x1024 .f32) (p q : Fin 1024) :
    k0_pay2 (F := Ideal) a b acc (ix2 p q) = acc (ix2 p q) + ∑ l : Fin 1024, a (ix2 p l) * b (ix2 l q) := by
  unfold k0_pay2
  rw [shapeCast_self]
  exact congrArg (acc (ix2 p q) + ·) (product_apply _ _ p q)

end Cert.KernelIdeal.Payload

end
-- ==== Proof.Pieces.lean ====
/-
  What one run of the kernel body leaves behind, as values.

  The body is run in three situations, told apart by the position `k` along the reduction axis of the grid:
  the first point of a run (`k = 0`: clear the accumulator, then add this point's product), a middle point
  (`k = 1, 2`: add this point's product to what the point before left) and the last point (`k = 3`: add, then copy
  the accumulator to the output block). Each store of the body overwrites its whole [1024 × 1024] buffer, so what a
  buffer holds afterwards is the value of the last store into it, and a load that follows a store reads that value
  back. Hence, with `a` and `b` the point's two input blocks and `acc` the accumulator the point before left:

    first point    accumulator := step a b cleared
    middle point   accumulator := step a b acc
    last point     accumulator := step a b acc,   output block := the same value

  where `step` is the body's accumulate payload and `cleared` its reset payload. These hold for any float values
  (nothing is computed here; the stores and loads are only matched up).
-/
import proofs.«137001_j23708219474208_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Every load and store of the body starts at the buffer's origin. -/
theorem origin : (![0, 0] : Fin 2 → Nat) = fun _ => 0 := funext fun a => by fin_cases a <;> rfl

/-- FIRST POINT of a run: the accumulator is cleared and this point's product added to the cleared value. -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 x1 : Vec F S1024x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- MIDDLE POINT: this point's product is added to what the point before left. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 x1 xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero origin]
  simp only [View.readAt_eq_ld, harg3.read_unread, harg4.read_unread, harg6.read_unread,
    View.ld_unit_zero (S := S1024x1024) origin]

/-- LAST POINT, the accumulator: as at a middle point. -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 x1 xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero origin]
  simp only [View.readAt_eq_ld, harg3.read_unread, harg4.read_unread, harg6.read_unread,
    View.ld_unit_zero (S := S1024x1024) origin]

/-- LAST POINT, the output block: the accumulator's new value, read back and stored. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 x1 xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero origin, View.readCov_unit_zero (S := S1024x1024) _ origin]
  simp only [View.readAt_eq_ld, harg3.read_unread, harg4.read_unread, harg6.read_unread,
    View.ld_unit_zero (S := S1024x1024) origin]

end Cert.KernelIdeal.Pieces

end
-- ==== Proof.BlockSum.lean ====
/-
  Splitting a sum over 4096 indices into four consecutive blocks of 1024.

  A product of a [1024 × 4096] row panel with a [4096 × 1024] column panel can be computed one
  [1024 × 1024] × [1024 × 1024] product at a time and the four partial products added up: entry by entry this
  is the regrouping  ∑_{i < 4096} f i = ∑_{k < 4} ∑_{l < 1024} f (1024·k + l).  It holds in every additive
  commutative monoid, so in particular on the extended reals, where no subtraction or cancellation is
  available: nothing here needs the summands to be finite.
-/
import Mathlib.Algebra.BigOperators.Fin
import Mathlib.Logic.Equiv.Fin.Basic

namespace Cert.BlockSum

open Finset

variable {M : Type*} [AddCommMonoid M]

/-- The index `1024·k + l` of the `l`-th entry of the `k`-th block. -/
def at4 (k : Fin 4) (l : Fin 1024) : Fin 4096 := ⟨1024 * k.val + l.val, by omega⟩

@[simp] theorem at4_val (k : Fin 4) (l : Fin 1024) : (at4 k l).val = 1024 * k.val + l.val := rfl

/-- A sum over `Fin 4096` is the sum over the four blocks of the sums inside each block. -/
theorem sum_eq_sum_blocks (f : Fin 4096 → M) :
    ∑ i, f i = ∑ k : Fin 4, ∑ l : Fin 1024, f (at4 k l) := by
  rw [← Fintype.sum_prod_type']
  refine (Equiv.sum_comp (finProdFinEquiv (m := 4) (n := 1024)) f).symm.trans ?_
  refine Fintype.sum_congr _ _ fun p => congrArg f (Fin.ext ?_)
  simp [finProdFinEquiv, at4]
  omega

/-- The partial sums over the first `n` blocks: `0`, then one more block at a time. -/
def partial4 (S : Fin 4 → M) : ℕ → M
  | 0 => 0
  | n + 1 => partial4 S n + (if h : n < 4 then S ⟨n, h⟩ else 0)

theorem partial4_zero (S : Fin 4 → M) : partial4 S 0 = 0 := rfl

theorem partial4_succ (S : Fin 4 → M) (k : Fin 4) :
    partial4 S (k.val + 1) = partial4 S k.val + S k := by
  rw [partial4, dif_pos k.isLt]

/-- After all four blocks the partial sum is the whole sum. -/
theorem partial4_four (S : Fin 4 → M) : partial4 S 4 = ∑ k, S k := by
  simp [partial4, Fin.sum_univ_four]

end Cert.BlockSum
-- ==== Proof.Spec.lean ====
/-
  The result as one function of the two arrays, and the law that joins the two programs.

  Entry (b, o) of the product of `x` ([8192 × 4096]) and `w` ([4096 × 4096]) is  ∑_{k < 4096} x(b, k) · w(k, o).
  Cut the shared axis into four blocks of 1024: entry (1024·I + p, 1024·J + q) is then

      ∑_{s < 4} ∑_{l < 1024} x(1024·I + p, 1024·s + l) · w(1024·s + l, 1024·J + q),

  the sum of the four block products. This is a regrouping of one sum (commutativity and associativity of +), so
  it holds for extended reals as it stands: no entry has to be finite.
-/
import proofs.«137001_j23708219474208_2_alg».proof.Proof.BlockSum
import Idealize.ShloMosaic.Lib.ValueIdx
import Idealize.ShloMosaic.PureOps.Ideal

noncomputable section

namespace Cert.Spec

open Idealize.ShloMosaic Idealize.ShloMosaic.ValueIdx

/-- The index types of the two arrays, over literal extents. -/
abbrev Tall : Type := (⟨2, ![8192, 4096]⟩ : Shape).Idx
abbrev Square : Type := (⟨2, ![4096, 4096]⟩ : Shape).Idx

/-- THE RESULT: entry `o = (b, o')` is the sum over the shared axis of x(b, k) · w(k, o'). -/
def whole (X : Tall → EReal) (W : Square → EReal) : Tall → EReal :=
  fun o => ∑ k : Fin 4096, X (ix2 (o 0) k) * W (ix2 k (o 1))

/-- Entry (1024·I + p, 1024·K + l) of an [8192 × 4096] array. Block numbers are read modulo the number of blocks
    on their axis (8 and 4), so the definition needs no bound on them; on the grid they are in range anyway. -/
def tall (I K : ℕ) (p l : Fin 1024) : Tall :=
  ix2 (⟨1024 * (I % 8) + p.val, by omega⟩ : Fin 8192) (⟨1024 * (K % 4) + l.val, by omega⟩ : Fin 4096)

/-- Entry (1024·K + l, 1024·J + q) of the [4096 × 4096] array, block numbers modulo 4. -/
def square (K J : ℕ) (l q : Fin 1024) : Square :=
  ix2 (⟨1024 * (K % 4) + l.val, by omega⟩ : Fin 4096) (⟨1024 * (J % 4) + q.val, by omega⟩ : Fin 4096)

/-- Only the block numbers' residues matter. -/
theorem tall_congr {I I' K K' : ℕ} (hI : I % 8 = I' % 8) (hK : K % 4 = K' % 4) (p l : Fin 1024) :
    tall I K p l = tall I' K' p l :=
  funext fun a => Fin.ext (by
    match a with
    | ⟨0, _⟩ => show 1024 * (I % 8) + p.val = 1024 * (I' % 8) + p.val; omega
    | ⟨1, _⟩ => show 1024 * (K % 4) + l.val = 1024 * (K' % 4) + l.val; omega)

theorem square_congr {K K' J J' : ℕ} (hK : K % 4 = K' % 4) (hJ : J % 4 = J' % 4) (l q : Fin 1024) :
    square K J l q = square K' J' l q :=
  funext fun a => Fin.ext (by
    match a with
    | ⟨0, _⟩ => show 1024 * (K % 4) + l.val = 1024 * (K' % 4) + l.val; omega
    | ⟨1, _⟩ => show 1024 * (J % 4) + q.val = 1024 * (J' % 4) + q.val; omega)

/-- THE LAW: an entry of the result inside block (I, J) is the sum of the four block products' entries. -/
theorem whole_tall (X : Tall → EReal) (W : Square → EReal) (I J : ℕ) (p q : Fin 1024) :
    whole X W (tall I J p q)
      = ∑ s ∈ Finset.range 4, ∑ l : Fin 1024, X (tall I s p l) * W (square s J l q) := by
  unfold whole
  rw [BlockSum.sum_eq_sum_blocks, Finset.sum_range]
  refine Finset.sum_congr rfl fun s _ => Finset.sum_congr rfl fun l _ => ?_
  have hs : s.val % 4 = s.val := Nat.mod_eq_of_lt s.isLt
  have eX : (ix2 ((tall I J p q) 0) (BlockSum.at4 s l) : Tall) = tall I s.val p l :=
    funext fun a => Fin.ext (by
      match a with
      | ⟨0, _⟩ => rfl
      | ⟨1, _⟩ => show 1024 * s.val + l.val = 1024 * (s.val % 4) + l.val; omega)
  have eW : (ix2 (BlockSum.at4 s l) ((tall I J p q) 1) : Square) = square s.val J l q :=
    funext fun a => Fin.ext (by
      match a with
      | ⟨0, _⟩ => show 1024 * s.val + l.val = 1024 * (s.val % 4) + l.val; omega
      | ⟨1, _⟩ => rfl)
  rw [eX, eW]

end Cert.Spec

end
-- ==== Proof.Blocks.lean ====
/-
  Where a block sits in its array.

  The grid has 8 × 4 × 4 points, numbered row-major: point `t` is (I, J, K) with  t = 16·I + 4·J + K.  At that point
  the left window shows block (I, K) of `x` (rows 1024·I …, columns 1024·K …), the right window block (K, J) of the
  weights, and the output window block (I, J) of the result. So entry (p, l) of the left block is entry
  (1024·I + p, 1024·K + l) of `x`, and likewise for the other two. The three index maps are decided once over the
  128 points; the rest is arithmetic.
-/
import proofs.«137001_j23708219474208_2_alg».proof.Proof.Gen.KernelIdeal.Frame
import proofs.«137001_j23708219474208_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem points : cfg0.N = 128 := N_0

/-- The three printed index maps in closed form, decided over the grid: at point `t = 16·I + 4·J + K` the windows
    are at blocks (I, K), (K, J) and (I, J). -/
theorem index_maps : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- Entry (p, l) of the left block at point `t` is entry (1024·I + p, 1024·K + l) of `x`. -/
theorem left_apply (c : Dev nD) (t : Fin cfg0.N) (p l : Fin 1024) :
    (iblk m c 0 t : Vec F S1024x1024 .f32) (ix2 p l) = V m c main_arg0 (Spec.tall (t.val / 16) t.val p l) := by
  have hN : t.val < 128 := lt_of_lt_of_eq t.isLt points
  obtain ⟨e0, e1, -⟩ := index_maps t
  unfold iblk
  rw [View.read_apply]
  show V m c main_arg0 _ = V m c main_arg0 _
  refine congrArg _ (funext fun a => Fin.ext ?_)
  match a with
  | ⟨0, _⟩ => show win0_0.index t (0 : Fin 2) * 1024 + 1 * p.val = 1024 * (t.val / 16 % 8) + p.val; omega
  | ⟨1, _⟩ => show win0_0.index t (1 : Fin 2) * 1024 + 1 * l.val = 1024 * (t.val % 4) + l.val; omega

/-- Entry (l, q) of the right block at point `t` is entry (1024·K + l, 1024·J + q) of the weights. -/
theorem right_apply (c : Dev nD) (t : Fin cfg0.N) (l q : Fin 1024) :
    (iblk m c 1 t : Vec F S1024x1024 .f32) (ix2 l q) = V m c main_arg1 (Spec.square t.val (t.val / 4) l q) := by
  have hN : t.val < 128 := lt_of_lt_of_eq t.isLt points
  obtain ⟨-, -, e2, e3, -⟩ := index_maps t
  unfold iblk
  rw [View.read_apply]
  show V m c main_arg1 _ = V m c main_arg1 _
  refine congrArg _ (funext fun a => Fin.ext ?_)
  match a with
  | ⟨0, _⟩ => show win0_1.index t (0 : Fin 2) * 1024 + 1 * l.val = 1024 * (t.val % 4) + l.val; omega
  | ⟨1, _⟩ => show win0_1.index t (1 : Fin 2) * 1024 + 1 * q.val = 1024 * (t.val / 4 % 4) + q.val; omega

/-- Entry (p, q) of the output block at point `t` is entry (1024·I + p, 1024·J + q) of the result. -/
theorem out_emb (t : Fin cfg0.N) (p q : Fin 1024) :
    ((cfg0.win 2).blk t).view.emb (ix2 p q) = Spec.tall (t.val / 16) (t.val / 4) p q := by
  have hN : t.val < 128 := lt_of_lt_of_eq t.isLt points
  obtain ⟨-, -, -, -, e4, e5⟩ := index_maps t
  refine funext fun a => Fin.ext ?_
  match a with
  | ⟨0, _⟩ => show win0_2.index t (0 : Fin 2) * 1024 + 1 * p.val = 1024 * (t.val / 16 % 8) + p.val; omega
  | ⟨1, _⟩ => show win0_2.index t (1 : Fin 2) * 1024 + 1 * q.val = 1024 * (t.val / 4 % 4) + q.val; omega

end Cert.KernelIdeal.Blocks

end
-- ==== Proof.Fold.lean ====
/-
  The accumulator after each grid point, entry by entry.

  Along the reduction axis the points come in runs of four, `t = 4·u, 4·u + 1, 4·u + 2, 4·u + 3`. The first clears the
  accumulator and adds its product, the next three add theirs. Write `addend n` for the product of point `n`'s two
  blocks, as a function of the whole arrays: at entry (p, q)

      addend n (p, q) = ∑_{l < 1024} x(1024·I + p, 1024·K + l) · w(1024·K + l, 1024·J + q),    n = 16·I + 4·J + K.

  Then after point `t` the accumulator holds, at every entry,  0 + ∑_{s ≤ t mod 4} addend (4·(t div 4) + s).
  The sum is a sum in the additive monoid of the extended reals: no subtraction, nothing to cancel, so nothing
  here asks whether an entry is finite.
-/
import proofs.«137001_j23708219474208_2_alg».proof.Proof.Gen.KernelIdeal.Value
import proofs.«137001_j23708219474208_2_alg».proof.Proof.Payload
import proofs.«137001_j23708219474208_2_alg».proof.Proof.Pieces
import proofs.«137001_j23708219474208_2_alg».proof.Proof.Blocks

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The two argument arrays as the kernel finds them, as functions of an index. -/
abbrev xs (c : Dev nD) : Spec.Tall → EReal := V m c main_arg0
abbrev ws (c : Dev nD) : Spec.Square → EReal := V m c main_arg1

/-- The product of point `n`'s left and right blocks at entry `j` of the accumulator, read in the whole arrays. -/
def addend (X : Spec.Tall → EReal) (W : Spec.Square → EReal) (n : ℕ) (j : S1024x1024.Idx) : EReal :=
  ∑ l : Fin 1024, X (Spec.tall (n / 16) n (j 0) l) * W (Spec.square n (n / 4) l (j 1))

/-- One accumulation step at point `t`: the old entry plus the point's addend. -/
theorem step_at (c : Dev nD) (t : Fin cfg0.N) (acc : Vec Ideal S1024x1024 .f32) (j : S1024x1024.Idx) :
    k0_pay2 (F := Ideal) (iblk m c 0 t) (iblk m c 1 t) acc j = acc j + addend (xs m c) (ws m c) t.val j := by
  obtain ⟨p, q, rfl⟩ : ∃ (p q : Fin 1024), j = ix2 p q := ⟨j 0, j 1, eq_ix2 j⟩
  refine (Payload.step_apply (iblk m c 0 t) (iblk m c 1 t) acc p q).trans ?_
  refine congrArg (acc (ix2 p q) + ·) ?_
  unfold addend
  refine Finset.sum_congr rfl fun l _ => ?_
  rw [Blocks.left_apply m c t p l, Blocks.right_apply m c t l q] <;> rfl

/-- The three cases of the body at a point of the grid, as values (the buffers and conditions are the point's). -/
theorem first_at (c : Dev nD) (t : Fin cfg0.N) (h0 : t.val % 4 = 0) (h1 : ¬t.val % 4 = 3) :
    sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)
      = k0_pay2 (iblk m c 0 t) (iblk m c 1 t) (k0_pay1 (F := Ideal)) :=
  Pieces.acc_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem middle_at (c : Dev nD) (t : Fin cfg0.N) (h0 : ¬t.val % 4 = 0) (h1 : ¬t.val % 4 = 3) (acc : Vec Ideal S1024x1024 .f32) :
    sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) acc
      = k0_pay2 (iblk m c 0 t) (iblk m c 1 t) acc :=
  Pieces.acc_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) acc

theorem last_at (c : Dev nD) (t : Fin cfg0.N) (h0 : ¬t.val % 4 = 0) (h1 : t.val % 4 = 3) (acc : Vec Ideal S1024x1024 .f32) :
    sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) acc
      = k0_pay2 (iblk m c 0 t) (iblk m c 1 t) acc :=
  Pieces.acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) acc

theorem out_at (c : Dev nD) (t : Fin cfg0.N) (h0 : ¬t.val % 4 = 0) (h1 : t.val % 4 = 3) (acc : Vec Ideal S1024x1024 .f32) :
    out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) acc
      = k0_pay2 (iblk m c 0 t) (iblk m c 1 t) acc :=
  Pieces.out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) acc

/-- THE ACCUMULATOR after point `t`, at entry `j`: the addends of the run's points up to `t`, summed from zero. -/
theorem acc_apply (c : Dev nD) (t : Fin cfg0.N) (j : S1024x1024.Idx) :
    (outsAt0 m c t.val t.isLt).2 j
      = 0 + ∑ s ∈ Finset.range (t.val % 4 + 1), addend (xs m c) (ws m c) (4 * (t.val / 4) + s) j := by
  rw [Value.soutsAt0_0_eq m c t]
  refine Pipeline.accAt_add_apply (ι := S1024x1024.Idx) (β := EReal) _ _ (fun _ => 0) (addend (xs m c) (ws m c))
    (4 * (t.val / 4)) 3 ?_ ?_ (t.val % 4) (by omega) _ j
  · intro h i
    have h0 : 4 * (t.val / 4) % 4 = 0 := by omega
    have h1 : ¬4 * (t.val / 4) % 4 = 3 := by omega
    show Value.scAt0_0 m c (4 * (t.val / 4)) h _ i = 0 + addend (xs m c) (ws m c) (4 * (t.val / 4)) i
    unfold Value.scAt0_0
    rw [dif_pos h0, dif_neg h1]
    refine (congrFun (first_at m c ⟨4 * (t.val / 4), h⟩ h0 h1) i).trans ?_
    refine (step_at m c ⟨4 * (t.val / 4), h⟩ _ i).trans ?_
    rw [Payload.cleared_apply]
  · intro n h acc i hb he
    have h0 : ¬n % 4 = 0 := by omega
    show Value.scAt0_0 m c n h acc i = acc i + addend (xs m c) (ws m c) n i
    unfold Value.scAt0_0
    by_cases h1 : n % 4 = 3
    · rw [dif_neg h0, dif_pos h1]
      exact (congrFun (last_at m c ⟨n, h⟩ h0 h1 acc) i).trans (step_at m c ⟨n, h⟩ acc i)
    · rw [dif_neg h0, dif_neg h1]
      exact (congrFun (middle_at m c ⟨n, h⟩ h0 h1 acc) i).trans (step_at m c ⟨n, h⟩ acc i)

end Cert.KernelIdeal.Fold

end
-- ==== Proof.OutAcc.lean ====
/-
  At the last point of a run the output block and the accumulator hold the same value.

  The body's last case adds the point's product to the accumulator and then copies the accumulator to the output
  block, so both buffers end at one and the same value: the step applied to what the point before left.
  The two buffers after a point are known as a pair, by one equation between pairs; the two small lemmas below
  read off its components.
-/
import proofs.«137001_j23708219474208_2_alg».proof.Proof.Fold

noncomputable section

namespace Cert.KernelIdeal.Fold

open Cert.KernelIdeal Cert.KernelIdeal.Gen Idealize.ShloMosaic Idealize.ShloMosaic.TcCoe Idealize.SL.Sem

/-- The first component of a pair known by an equation. -/
theorem fst_of_eq {α β : Type} {p : α × β} {a : α} {b : β} (h : p = (a, b)) : p.1 = a := by rw [h]
/-- The second component of a pair known by an equation. -/
theorem snd_of_eq {α β : Type} {p : α × β} {a : α} {b : β} (h : p = (a, b)) : p.2 = b := by rw [h]

variable (m : (ℓ : Loc nD τ sig) → Buf (Elt Ideal) ℓ)

/-- What the accumulator held before point `t` (for `t` not the first point of the grid). -/
abbrev before (c : Dev nD) (t : Fin cfg0.N) : Vec Ideal S1024x1024 .f32 :=
  (outsAt0 m c (t.val - 1) (Nat.lt_of_le_of_lt (Nat.sub_le _ _) t.isLt)).2

/-- The accumulator after the last point of a run: the step applied to what the point before left. -/
theorem acc_at_last (c : Dev nD) (t : Fin cfg0.N) (h0 : ¬t.val % 4 = 0) (h1 : t.val % 4 = 3) :
    (outsAt0 m c t.val t.isLt).2 = k0_pay2 (iblk m c 0 t) (iblk m c 1 t) (before m c t) :=
  (snd_of_eq (outsAt0_C m c t h0 h1)).trans (last_at m c t h0 h1 (before m c t))

/-- The output block after the last point of a run: the same value. -/
theorem out_at_last (c : Dev nD) (t : Fin cfg0.N) (h0 : ¬t.val % 4 = 0) (h1 : t.val % 4 = 3) :
    (outsAt0 m c t.val t.isLt).1 = k0_pay2 (iblk m c 0 t) (iblk m c 1 t) (before m c t) :=
  (fst_of_eq (outsAt0_C m c t h0 h1)).trans (out_at m c t h0 h1 (before m c t))

/-- At the last point of a run the output block is stored with the accumulator's new value. -/
theorem out_eq_acc (c : Dev nD) (t : Fin cfg0.N) (h1 : t.val % 4 = 3) :
    (outsAt0 m c t.val t.isLt).1 = (outsAt0 m c t.val t.isLt).2 :=
  have h0 : ¬t.val % 4 = 0 := by omega
  (out_at_last m c t h0 h1).trans (acc_at_last m c t h0 h1).symm

end Cert.KernelIdeal.Fold

end
-- ==== Proof.Final.lean ====
/-
  The result array after the run.

  The output window is written back exactly at the last point of each run of four (`t mod 4 = 3`), with the
  accumulator's value there: the four block products of block row I of `x` and block column J of the weights,
  summed. By the block decomposition of a sum this is block (I, J) of the whole product. The 32 written blocks
  (I < 8, J < 4) tile the [8192 × 4096] result: entry (b, o) lies in block (b div 1024, o div 1024), written at point
  16·(b div 1024) + 4·(o div 1024) + 3. So the result array ends holding the whole product, entry by entry.
-/
import proofs.«137001_j23708219474208_2_alg».proof.Proof.OutAcc

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The whole product of the two argument arrays of core `c`, as contents of the result array. -/
abbrev result (c : Dev nD) : Buf (Elt Ideal) ((c : Thread nD τ).loc main_v0) :=
  Spec.whole (Fold.xs m c) (Fold.ws m c)

/-- WHAT A WRITE-BACK WRITES: at the last point of a run, the output block is that block of the whole product. -/
theorem flushed_eq (c : Dev nD) (t : Fin cfg0.N) (hf : (cfg0.win 2).flush t = true) :
    (dats m 0 c).flushed 2 t = ((cfg0.win 2).blk t).view.read (Elt Ideal) (result m c) := by
  have hN : t.val < 128 := lt_of_lt_of_eq t.isLt Blocks.points
  have h3 : t.val % 4 = 3 := (flush0_2 t).mp hf
  refine (Value.flushed2 m c t).trans ?_
  funext j
  obtain ⟨p, q, rfl⟩ : ∃ (p q : Fin 1024), j = ix2 p q := ⟨j 0, j 1, eq_ix2 j⟩
  show (outsAt0 m c t.val t.isLt).1 (ix2 p q) = Spec.whole (Fold.xs m c) (Fold.ws m c) (((cfg0.win 2).blk t).view.emb (ix2 p q))
  rw [Fold.out_eq_acc m c t h3, Fold.acc_apply m c t (ix2 p q), Blocks.out_emb t p q, Spec.whole_tall, zero_add, h3]
  refine Finset.sum_congr rfl fun s hs => ?_
  have hs4 : s < 4 := Finset.mem_range.mp hs
  unfold Fold.addend
  refine Finset.sum_congr rfl fun l _ => ?_
  rw [Spec.tall_congr (I' := t.val / 16) (K' := s) (by omega) (by omega) _ l,
    Spec.square_congr (K' := s) (J' := t.val / 4) (by omega) (by omega) l _] <;> rfl

/-- THE COVER: every entry of the result lies in the block some write-back writes. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, lt_of_lt_of_eq (by omega) Blocks.points.symm⟩, rfl⟩
  obtain ⟨-, -, -, -, e4, e5⟩ := Blocks.index_maps t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- So the result array ends holding the whole product. -/
theorem final (c : Dev nD) : (dats m 0 c).arrAt 2 cfg0.N = result m c :=
  (dats m 0 c).arrAt_eq_of_cover 2 (result m c) (flushed_eq m c) cover

/-- The run, read: the result array at the whole product of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefBridge.lean ====
/-
  The reference computes the result function.

  The reference is one product of the two whole arrays. Read at an index (b, o) over the extended reals it is
  ∑_{k < 4096} x(b, k) · w(k, o): the function `Spec.whole` of the two arrays, with the operand indices written by
  their coordinates.
-/
import proofs.«137001_j23708219474208_2_alg».proof.Proof.Gen.ReferenceIdeal.Read
import proofs.«137001_j23708219474208_2_alg».proof.Proof.Spec

noncomputable section

namespace Cert.ReferenceIdeal.RefValue

open Cert.ReferenceIdeal Idealize.ShloMosaic Idealize.ShloMosaic.ValueIdx

/-- The reference's product of the whole arrays is the result function, entry by entry. -/
theorem stage_eq_whole (X : (⟨S8192x4096, .f32⟩ : BufTy).Contents (Elt Ideal))
    (W : (⟨S4096x4096, .f32⟩ : BufTy).Contents (Elt Ideal)) :
    Read.val_main_v0 (F := Ideal) X W = Spec.whole X W := by
  funext o
  refine (Read.val_main_v0_apply X W o).trans ?_
  unfold Spec.whole
  refine Finset.sum_congr rfl fun k _ => ?_
  have el : Read.lidx_main_v0 o k = ix2 (o 0) k := funext fun a => Fin.ext (by
    match a with
    | ⟨0, _⟩ => rfl
    | ⟨1, _⟩ => rfl)
  have er : Read.ridx_main_v0 o k = ix2 k (o 1) := funext fun a => Fin.ext (by
    match a with
    | ⟨0, _⟩ => rfl
    | ⟨1, _⟩ => rfl)
  rw [el, er] <;> rfl

end Cert.ReferenceIdeal.RefValue

end
-- ==== Proof.lean ====
/-
  A dense layer  out[b, o] = ∑_i x[b, i] · w[i, o]  (x : f32[8192, 4096], w : f32[4096, 4096]) computed by a tiled
  kernel, against the same product written as one einsum.

  THE KERNEL walks a grid of 8 × 4 × 4 points (I, J, K). At a point it multiplies block (I, K) of `x` by block (K, J) of
  `w` — 1024 × 1024 each, narrowed to bf16 for the multiplier — and adds the product into a [1024 × 1024] f32
  accumulator that lives across the four points of the reduction axis K: cleared at K = 0, copied to block (I, J) of
  the result at K = 3. THE REFERENCE is one product of the whole arrays.

  Over the extended reals a change of float format is the identity and every operation is exact, so the kernel's
  block (I, J) ends at   ((0 + P₀) + P₁) + P₂) + P₃   with  P_K(p, q) = ∑_{l < 1024} x(1024·I + p, 1024·K + l) · w(1024·K + l, 1024·J + q),
  and the reference's entry (b, o) is  ∑_{k < 4096} x(b, k) · w(k, o).  The two are one sum, grouped differently:
  ∑_{k < 4096} f k = ∑_{K < 4} ∑_{l < 1024} f (1024·K + l). Regrouping uses only that + is commutative and associative with
  unit 0, which holds on the extended reals without exception; so the equality needs no entry to be finite, and the
  precondition is not used for it.

  The parts:
    BlockSum   the regrouping of a sum over 4096 indices into four blocks, in any additive commutative monoid
    Spec       the result as one function `whole` of the two arrays, and its block decomposition
    Payload    the body's two stored values at an entry (the cleared accumulator; one accumulation step)
    Pieces     what each of the body's three cases leaves in the accumulator and in the output block
    Blocks     where each window's block sits in its array (the three index maps, decided over the grid)
    Fold       the accumulator after each point, entry by entry: the addends of its run so far, summed from zero
    OutAcc     at the last point of a run the output block holds the accumulator's value
    Final      each write-back writes a block of `whole`; the 32 written blocks cover the result; the run
    RefBridge  the reference's product is `whole`
  Nothing was rewritten in passing from the kernel to its reading over the extended reals, so that reading is the
  kernel's own text and the preservation claim is `True`. The three frames (each program terminates without a fault and leaves its
  arguments unchanged) are the generated ones; the reference's is its run with the result forgotten.
-/
import proofs.«137001_j23708219474208_2_alg».proof.Defs
import proofs.«137001_j23708219474208_2_alg».proof.Proof.Gen.Kernel
import proofs.«137001_j23708219474208_2_alg».proof.Proof.Gen.Kernel.Skeleton
import proofs.«137001_j23708219474208_2_alg».proof.Proof.Gen.Kernel.Launch
import proofs.«137001_j23708219474208_2_alg».proof.Proof.Gen.Kernel.Points
import proofs.«137001_j23708219474208_2_alg».proof.Proof.Gen.Kernel.Frame
import proofs.«137001_j23708219474208_2_alg».proof.Proof.Gen.KernelIdeal
import proofs.«137001_j23708219474208_2_alg».proof.Proof.Gen.KernelIdeal.Skeleton
import proofs.«137001_j23708219474208_2_alg».proof.Proof.Gen.KernelIdeal.Launch
import proofs.«137001_j23708219474208_2_alg».proof.Proof.Gen.KernelIdeal.Points
import proofs.«137001_j23708219474208_2_alg».proof.Proof.Gen.KernelIdeal.Frame
import proofs.«137001_j23708219474208_2_alg».proof.Proof.Gen.ReferenceIdeal
import proofs.«137001_j23708219474208_2_alg».proof.Proof.Gen.Pre_finite_inputs
import proofs.«137001_j23708219474208_2_alg».proof.Proof.Gen.KernelIdeal.Value
import proofs.«137001_j23708219474208_2_alg».proof.Proof.Gen.ReferenceIdeal.Run
import proofs.«137001_j23708219474208_2_alg».proof.Proof.Gen.ReferenceIdeal.Read
import proofs.«137001_j23708219474208_2_alg».proof.Proof.Final
import proofs.«137001_j23708219474208_2_alg».proof.Proof.RefBridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Over the extended reals, from memories that agree on `x` and `w`, both programs end with the result array at
    the whole product of the two arrays: the kernel's 32 accumulated blocks are its blocks, the reference's einsum is
    it entry by entry. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.stage_eq_whole _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
